-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S4096x1 : Shape := ⟨2, ![4096, 1]⟩
abbrev S4096x100 : Shape := ⟨2, ![4096, 100]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S2x600000 32) (main_arg2 : IVec S4096x1 32) (main_arg3 : IVec S4096x100 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S2x600000 : Shape := ⟨2, ![2, 600000]⟩
abbrev S4096x1 : Shape := ⟨2, ![4096, 1]⟩
abbrev S4096x100 : Shape := ⟨2, ![4096, 100]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S4096 : Shape := ⟨1, ![4096]⟩
abbrev S4096x128 : Shape := ⟨2, ![4096, 128]⟩
abbrev S4096x100x1 : Shape := ⟨3, ![4096, 100, 1]⟩
abbrev S4096x100x128 : Shape := ⟨3, ![4096, 100, 128]⟩
abbrev S256x128 : Shape := ⟨2, ![256, 128]⟩
abbrev S256x100x128 : Shape := ⟨3, ![256, 100, 128]⟩
abbrev S256x1x128 : Shape := ⟨3, ![256, 1, 128]⟩
abbrev S256x100 : Shape := ⟨2, ![256, 100]⟩
abbrev S256x28 : Shape := ⟨2, ![256, 28]⟩

abbrev nBuf : Space → Nat
  | .hbm => 117
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S4096x1, .i32⟩
  | .hbm, ⟨3, _⟩ => ⟨S4096x100, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S700000, .i32⟩
  | .hbm, ⟨22, _⟩ => ⟨S700000, .i1⟩
  | .hbm, ⟨23, _⟩ => ⟨S_, .i32⟩
  | .hbm, ⟨24, _⟩ => ⟨S700000, .i32⟩
  | .hbm, ⟨25, _⟩ => ⟨S700000, .i32⟩
  | .hbm, ⟨26, _⟩ => ⟨S700000, .i32⟩
  | .hbm, ⟨27, _⟩ => ⟨S700000x1, .i32⟩
  | .hbm, ⟨28, _⟩ => ⟨S700000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S700000, .f32⟩
  | .hbm, ⟨39, _⟩ => ⟨S_, .f32⟩
  | .hbm, ⟨40, _⟩ => ⟨S700000, .f32⟩
  | .hbm, ⟨41, _⟩ => ⟨S_, .f32⟩
  | .hbm, ⟨42, _⟩ => ⟨S100000, .f32⟩
  | .hbm, ⟨43, _⟩ => ⟨S700000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000, .f32⟩
  | .hbm, ⟨57, _⟩ => ⟨S700000, .f32⟩
  | .hbm, ⟨58, _⟩ => ⟨S700000x1, .f32⟩
  | .hbm, ⟨59, _⟩ => ⟨S_, .i32⟩
  | .hbm, ⟨60, _⟩ => ⟨S700000, .i32⟩
  | .hbm, ⟨61, _⟩ => ⟨S700000, .i1⟩
  | .hbm, ⟨62, _⟩ => ⟨S_, .i32⟩
  | .hbm, ⟨63, _⟩ => ⟨S700000, .i32⟩
  | .hbm, ⟨64, _⟩ => ⟨S700000, .i32⟩
  | .hbm, ⟨65, _⟩ => ⟨S700000, .i32⟩
  | .hbm, ⟨66, _⟩ => ⟨S700000x1, .i32⟩
  | .hbm, ⟨67, _⟩ => ⟨S700000x128, .f32⟩
  | .hbm, ⟨68, _⟩ => ⟨S700000x128, .f32⟩
  | .hbm, ⟨69, _⟩ => ⟨S700000x128, .f32⟩
  | .hbm, ⟨70, _⟩ => ⟨S_, .f32⟩
  | .hbm, ⟨71, _⟩ => ⟨S100000x128, .f32⟩
  | .hbm, ⟨72, _⟩ => ⟨S700000x1, .i32⟩
  | .hbm, ⟨73, _⟩ => ⟨S100000x128, .f32⟩
  | .hbm, ⟨74, _⟩ => ⟨S100000x128, .f32⟩
  | .hbm, ⟨75, _⟩ => ⟨S700000x1, .f32⟩
  | .hbm, ⟨76, _⟩ => ⟨S_, .i32⟩
  | .hbm, ⟨77, _⟩ => ⟨S700000, .i32⟩
  | .hbm, ⟨78, _⟩ => ⟨S700000, .i1⟩
  | .hbm, ⟨79, _⟩ => ⟨S_, .i32⟩
  | .hbm, ⟨80, _⟩ => ⟨S700000, .i32⟩
  | .hbm, ⟨81, _⟩ => ⟨S700000, .i32⟩
  | .hbm, ⟨82, _⟩ => ⟨S700000, .i32⟩
  | .hbm, ⟨83, _⟩ => ⟨S700000x1, .i32⟩
  | .hbm, ⟨84, _⟩ => ⟨S700000x128, .f32⟩
  | .hbm, ⟨85, _⟩ => ⟨S700000x128, .f32⟩
  | .hbm, ⟨86, _⟩ => ⟨S700000x128, .f32⟩
  | .hbm, ⟨87, _⟩ => ⟨S_, .f32⟩
  | .hbm, ⟨88, _⟩ => ⟨S100000x128, .f32⟩
  | .hbm, ⟨89, _⟩ => ⟨S700000x1, .i32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .bf16⟩
  | .hbm, ⟨96, _⟩ => ⟨S4096, .i32⟩
  | .hbm, ⟨97, _⟩ => ⟨S_, .i32⟩
  | .hbm, ⟨98, _⟩ => ⟨S4096, .i32⟩
  | .hbm, ⟨99, _⟩ => ⟨S4096, .i1⟩
  | .hbm, ⟨100, _⟩ => ⟨S_, .i32⟩
  | .hbm, ⟨101, _⟩ => ⟨S4096, .i32⟩
  | .hbm, ⟨102, _⟩ => ⟨S4096, .i32⟩
  | .hbm, ⟨103, _⟩ => ⟨S4096, .i32⟩
  | .hbm, ⟨104, _⟩ => ⟨S4096x1, .i32⟩
  | .hbm, ⟨105, _⟩ => ⟨S4096x128, .bf16⟩
  | .hbm, ⟨106, _⟩ => ⟨S_, .i32⟩
  | .hbm, ⟨107, _⟩ => ⟨S4096x100, .i32⟩
  | .hbm, ⟨108, _⟩ => ⟨S4096x100, .i1⟩
  | .hbm, ⟨109, _⟩ => ⟨S_, .i32⟩
  | .hbm, ⟨110, _⟩ => ⟨S4096x100, .i32⟩
  | .hbm, ⟨111, _⟩ => ⟨S4096x100, .i32⟩
  | .hbm, ⟨112, _⟩ => ⟨S4096x100, .i32⟩
  | .hbm, ⟨113, _⟩ => ⟨S4096x100x1, .i32⟩
  | .hbm, ⟨114, _⟩ => ⟨S4096x100x128, .bf16⟩
  | .hbm, ⟨115, _⟩ => ⟨S4096x128, .f32⟩
  | .hbm, ⟨116, _⟩ => ⟨S4096x100, .f32⟩
  | .local _ .vmem, ⟨0, _⟩ => ⟨S256x128, .bf16⟩
  | .local _ .vmem, ⟨1, _⟩ => ⟨S256x128, .bf16⟩
  | .local _ .vmem, ⟨2, _⟩ => ⟨S256x100x128, .bf16⟩
  | .local _ .vmem, ⟨3, _⟩ => ⟨S256x100x128, .bf16⟩
  | .local _ .vmem, ⟨4, _⟩ => ⟨S256x128, .f32⟩
  | .local _ .vmem, ⟨5, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_13 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_17 : Ref sig .tc := ⟨.hbm, 97, rfl⟩
abbrev main_v74 : Ref sig .tc := ⟨.hbm, 98, rfl⟩
abbrev main_v75 : Ref sig .tc := ⟨.hbm, 99, rfl⟩
abbrev main_c_18 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_19 : Ref sig .tc := ⟨.hbm, 106, rfl⟩
abbrev main_v81 : Ref sig .tc := ⟨.hbm, 107, rfl⟩
abbrev main_v82 : Ref sig .tc := ⟨.hbm, 108, rfl⟩
abbrev main_c_20 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x100x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bitsLt_bf16_f32 : FTy.bits .bf16 < FTy.bits .f32
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x100 : S_.BroadcastsInDim S4096x100 (![] : Fin 0 → Fin S4096x100.rank)
  bcast_S4096x100_S4096x100x1_0_1 : S4096x100.BroadcastsInDim S4096x100x1 (![0, 1] : Fin 2 → Fin S4096x100x1.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x100x128_S256x100x128_0_0_0 : ∀ a, (![0, 0, 0] : Fin 3 → Nat) a + S256x100x128.size a ≤ S256x100x128.size a
  h_S256x100x128 : 0 < S256x100x128.numel
  shapeCasts_S256x100x128_S256x100x128 : S256x100x128.ShapeCasts S256x100x128
  shapeCasts_S256x128_S256x1x128 : S256x128.ShapeCasts S256x1x128
  shapeCasts_S256x1x128_S256x1x128 : S256x1x128.ShapeCasts S256x1x128
  broadcasts_S256x1x128_S256x100x128 : S256x1x128.Broadcasts S256x100x128
  reduces_S256x100x128_S256x100 : S256x100x128.Reduces [2] S256x100
  concatenates_S256x100_S256x28_S256x128_d1 : Shape.Concatenates [S256x100, S256x28] S256x128 1
  slices_S4096x128_S4096x100_0_0 : S4096x128.Slices ![0, 0] S4096x100
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S4096x1_S4096x128_1_0_n_n_0_1_1128_wf : GatherDims.WF S100000x128 S4096x1 S4096x128 [1] [0] [] [0] [] 1 ![1, 128]
  gather_S100000x128_S4096x100x1_S4096x100x128_2_0_n_n_0_2_1128_wf : GatherDims.WF S100000x128 S4096x100x1 S4096x100x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .bf16 = 32 ∨ (Rect.block (s := S4096x128) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x100x128.size a ≤ S4096x100x128.size a
  hwx0_1 : ∀ i : grid0.Coords, EltTy.bits .bf16 = 32 ∨ (Rect.block (s := S4096x100x128) S256x100x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S100000x128_S4096x100x1_S4096x100x128_2_0_n_n_0_2_1128 : GatherDims S100000x128 S4096x100x1 S4096x100x128 where
  offsetDims := [2]
  collapsedSliceDims := [0]
  operandBatchingDims := []
  startIndicesBatchingDims := []
  startIndexMap := [0]
  indexVectorDim := 2
  sliceSizes := ![1, 128]
  wf := gather_S100000x128_S4096x100x1_S4096x100x128_2_0_n_n_0_2_1128_wf

abbrev win0_0 : Pipeline.Window sig grid0 :=
  Pipeline.Window.ofSpec (Memref.whole main_v80) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S256x100x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S4096x1 : Shape := ⟨2, ![4096, 1]⟩
abbrev S4096x100 : Shape := ⟨2, ![4096, 100]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S100000x1 : Shape := ⟨2, ![100000, 1]⟩
abbrev S4096x1x1 : Shape := ⟨3, ![4096, 1, 1]⟩
abbrev S4096x1x128 : Shape := ⟨3, ![4096, 1, 128]⟩
abbrev S4096x100x1 : Shape := ⟨3, ![4096, 100, 1]⟩
abbrev S4096x100x128 : Shape := ⟨3, ![4096, 100, 128]⟩
abbrev S4096x1x100 : Shape := ⟨3, ![4096, 1, 100]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S4096x1, .i32⟩
  | .hbm, ⟨3, _⟩ => ⟨S4096x100, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S700000, .i32⟩
  | .hbm, ⟨22, _⟩ => ⟨S700000, .i1⟩
  | .hbm, ⟨23, _⟩ => ⟨S_, .i32⟩
  | .hbm, ⟨24, _⟩ => ⟨S700000, .i32⟩
  | .hbm, ⟨25, _⟩ => ⟨S700000, .i32⟩
  | .hbm, ⟨26, _⟩ => ⟨S700000, .i32⟩
  | .hbm, ⟨27, _⟩ => ⟨S700000x1, .i32⟩
  | .hbm, ⟨28, _⟩ => ⟨S700000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S700000, .f32⟩
  | .hbm, ⟨39, _⟩ => ⟨S700000x1, .f32⟩
  | .hbm, ⟨40, _⟩ => ⟨S_, .i32⟩
  | .hbm, ⟨41, _⟩ => ⟨S700000, .i32⟩
  | .hbm, ⟨42, _⟩ => ⟨S700000, .i1⟩
  | .hbm, ⟨43, _⟩ => ⟨S_, .i32⟩
  | .hbm, ⟨44, _⟩ => ⟨S700000, .i32⟩
  | .hbm, ⟨45, _⟩ => ⟨S700000, .i32⟩
  | .hbm, ⟨46, _⟩ => ⟨S700000, .i32⟩
  | .hbm, ⟨47, _⟩ => ⟨S700000x1, .i32⟩
  | .hbm, ⟨48, _⟩ => ⟨S700000x128, .f32⟩
  | .hbm, ⟨49, _⟩ => ⟨S700000x128, .f32⟩
  | .hbm, ⟨50, _⟩ => ⟨S700000x128, .f32⟩
  | .hbm, ⟨51, _⟩ => ⟨S_, .f32⟩
  | .hbm, ⟨52, _⟩ => ⟨S100000x128, .f32⟩
  | .hbm, ⟨53, _⟩ => ⟨S700000x1, .i32⟩
  | .hbm, ⟨54, _⟩ => ⟨S100000x128, .f32⟩
  | .hbm, ⟨55, _⟩ => ⟨S_, .f32⟩
  | .hbm, ⟨56, _⟩ => ⟨S700000, .f32⟩
  | .hbm, ⟨57, _⟩ => ⟨S_, .f32⟩
  | .hbm, ⟨58, _⟩ => ⟨S100000, .f32⟩
  | .hbm, ⟨59, _⟩ => ⟨S700000x1, .i32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S700000x1, .f32⟩
  | .hbm, ⟨66, _⟩ => ⟨S_, .i32⟩
  | .hbm, ⟨67, _⟩ => ⟨S700000, .i32⟩
  | .hbm, ⟨68, _⟩ => ⟨S700000, .i1⟩
  | .hbm, ⟨69, _⟩ => ⟨S_, .i32⟩
  | .hbm, ⟨70, _⟩ => ⟨S700000, .i32⟩
  | .hbm, ⟨71, _⟩ => ⟨S700000, .i32⟩
  | .hbm, ⟨72, _⟩ => ⟨S700000, .i32⟩
  | .hbm, ⟨73, _⟩ => ⟨S700000x1, .i32⟩
  | .hbm, ⟨74, _⟩ => ⟨S700000x128, .f32⟩
  | .hbm, ⟨75, _⟩ => ⟨S700000x128, .f32⟩
  | .hbm, ⟨76, _⟩ => ⟨S700000x128, .f32⟩
  | .hbm, ⟨77, _⟩ => ⟨S_, .f32⟩
  | .hbm, ⟨78, _⟩ => ⟨S100000x128, .f32⟩
  | .hbm, ⟨79, _⟩ => ⟨S700000x1, .i32⟩
  | .hbm, ⟨80, _⟩ => ⟨S100000x128, .f32⟩
  | .hbm, ⟨81, _⟩ => ⟨S_, .f32⟩
  | .hbm, ⟨82, _⟩ => ⟨S700000, .f32⟩
  | .hbm, ⟨83, _⟩ => ⟨S_, .f32⟩
  | .hbm, ⟨84, _⟩ => ⟨S100000, .f32⟩
  | .hbm, ⟨85, _⟩ => ⟨S700000x1, .i32⟩
  | .hbm, ⟨86, _⟩ => ⟨S100000, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S4096x1, .i32⟩
  | .hbm, ⟨96, _⟩ => ⟨S4096x1, .i1⟩
  | .hbm, ⟨97, _⟩ => ⟨S_, .i32⟩
  | .hbm, ⟨98, _⟩ => ⟨S4096x1, .i32⟩
  | .hbm, ⟨99, _⟩ => ⟨S4096x1, .i32⟩
  | .hbm, ⟨100, _⟩ => ⟨S4096x1, .i32⟩
  | .hbm, ⟨101, _⟩ => ⟨S4096x1x1, .i32⟩
  | .hbm, ⟨102, _⟩ => ⟨S4096x1x128, .f32⟩
  | .hbm, ⟨103, _⟩ => ⟨S_, .i32⟩
  | .hbm, ⟨104, _⟩ => ⟨S4096x100, .i32⟩
  | .hbm, ⟨105, _⟩ => ⟨S4096x100, .i1⟩
  | .hbm, ⟨106, _⟩ => ⟨S_, .i32⟩
  | .hbm, ⟨107, _⟩ => ⟨S4096x100, .i32⟩
  | .hbm, ⟨108, _⟩ => ⟨S4096x100, .i32⟩
  | .hbm, ⟨109, _⟩ => ⟨S4096x100, .i32⟩
  | .hbm, ⟨110, _⟩ => ⟨S4096x100x1, .i32⟩
  | .hbm, ⟨111, _⟩ => ⟨S4096x100x128, .f32⟩
  | .hbm, ⟨112, _⟩ => ⟨S4096x1x100, .f32⟩
  | .hbm, ⟨113, _⟩ => ⟨S4096x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_c_16 : Ref sig .tc := ⟨.hbm, 94, rfl⟩
abbrev main_v72 : Ref sig .tc := ⟨.hbm, 95, rfl⟩
abbrev main_v73 : Ref sig .tc := ⟨.hbm, 96, rfl⟩
abbrev main_c_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_18 : Ref sig .tc := ⟨.hbm, 103, rfl⟩
abbrev main_v79 : Ref sig .tc := ⟨.hbm, 104, rfl⟩
abbrev main_v80 : Ref sig .tc := ⟨.hbm, 105, rfl⟩
abbrev main_c_19 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  bcast_S_S4096x100 : S_.BroadcastsInDim S4096x100 (![] : Fin 0 → Fin S4096x100.rank)
  bcast_S4096x100_S4096x100x1_0_1 : S4096x100.BroadcastsInDim S4096x100x1 (![0, 1] : Fin 2 → Fin S4096x100x1.rank)
  shapeCasts_S4096x1x100_S4096x100 : S4096x1x100.ShapeCasts S4096x100
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S4096x1x1_S4096x1x128_2_0_n_n_0_2_1128_wf : GatherDims.WF S100000x128 S4096x1x1 S4096x1x128 [2] [0] [] [0] [] 2 ![1, 128]
  gather_S100000x128_S4096x100x1_S4096x100x128_2_0_n_n_0_2_1128_wf : GatherDims.WF S100000x128 S4096x100x1 S4096x100x128 [2] [0] [] [0] [] 2 ![1, 128]
  dot_S4096x1x128_S4096x100x128_S4096x1x100_2_2_1_1_0_0_wf : DotDims.WF S4096x1x128 S4096x100x128 S4096x1x100 [2] [2] [1] [1] [0] [0]

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S4096x1x1_S4096x1x128_2_0_n_n_0_2_1128 : GatherDims S100000x128 S4096x1x1 S4096x1x128 where
  offsetDims := [2]
  collapsedSliceDims := [0]
  operandBatchingDims := []
  startIndicesBatchingDims := []
  startIndexMap := [0]
  indexVectorDim := 2
  sliceSizes := ![1, 128]
  wf := gather_S100000x128_S4096x1x1_S4096x1x128_2_0_n_n_0_2_1128_wf
def gather_S100000x128_S4096x100x1_S4096x100x128_2_0_n_n_0_2_1128 : GatherDims S100000x128 S4096x100x1 S4096x100x128 where
  offsetDims := [2]
  collapsedSliceDims := [0]
  operandBatchingDims := []
  startIndicesBatchingDims := []
  startIndexMap := [0]
  indexVectorDim := 2
  sliceSizes := ![1, 128]
  wf := gather_S100000x128_S4096x100x1_S4096x100x128_2_0_n_n_0_2_1128_wf
def dot_S4096x1x128_S4096x100x128_S4096x1x100_2_2_1_1_0_0 : DotDims S4096x1x128 S4096x100x128 S4096x1x100 where
  lhsContracting := [2]
  rhsContracting := [2]
  lhsNonContracting := [1]
  rhsNonContracting := [1]
  lhsBatch := [0]
  rhsBatch := [0]
  wf := dot_S4096x1x128_S4096x100x128_S4096x1x100_2_2_1_1_0_0_wf

class Facts : Prop extends Facts₀ where

variable [Facts]
-- ==== Proof.ScoreBlock.lean ====
/-
  The block of scores one grid step stores, read at an index: entry (p, q) of the stored 256 × 128 block is, for a column
  q below 100, the dot product over the 128 lanes of row p of the item block with sample row q of row p of the sample
  block, and zero on the 28 padding columns.
-/
import proofs.«140278_j1735166787760_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Scores

open Idealize.ShloMosaic Idealize.ShloMosaic.ValueIdx Idealize.SL.Sem Cert.KernelIdeal Cert.KernelIdeal.Gen
open scoped BigOperators

/-- The lane sum of the block: entry (p, s) of the reduction over the last axis of the products of row p of the
    item block, repeated along the sample axis, with the sample block. -/
theorem laneSum_apply (x0 : FVec Ideal S256x128 .bf16) (x1 : FVec Ideal S256x100x128 .bf16)
    (h1 : S256x128.ShapeCasts S256x128) (h3 : S256x100x128.ShapeCasts S256x100x128)
    (h4 : S256x128.ShapeCasts S256x1x128) (h5 : S256x1x128.ShapeCasts S256x1x128)
    (hb : S256x1x128.Broadcasts S256x100x128) (hlt : FTy.bits .bf16 < FTy.bits .f32)
    (hr : S256x100x128.Reduces [2] S256x100) (hφ : FKind.Formats .f32)
    (hacc : (0x00000000#32 : BitVec 32) = FKind.add.neutral .f32 hφ)
    (p : Fin 256) (s : Fin 100) :
    multiReduction (F := Ideal) .add [2] S256x100
        (extf .f32 (mulf (broadcastTo S256x100x128 (shapeCast S256x1x128 (shapeCast S256x1x128 (shapeCast S256x128 x0 h1) h4) h5) hb)
          (shapeCast S256x100x128 x1 h3)) hlt) 0x00000000#32 hr hφ hacc (ix2 p s)
      = ∑ d : Fin 128, x0 (ix2 p d) * x1 (ix3 p s d) := by
  refine (Ideal.multiReduction_add_single _ _ hr hφ hacc (ix2 p s)).trans ?_
  refine Finset.sum_congr rfl fun (d : Fin 128) _ => ?_
  have e : hr.lift (ix2 p s) d = ix3 p s d := by
    funext a; apply Fin.ext
    match a with
    | ⟨0, _⟩ => rfl
    | ⟨1, _⟩ => rfl
    | ⟨2, _⟩ => rfl
  have eA : broadcastTo S256x100x128 (shapeCast S256x1x128 (shapeCast S256x1x128 (shapeCast S256x128 x0 h1) h4) h5) hb (ix3 p s d)
      = x0 (ix2 p d) := by
    refine (broadcastTo_apply _ hb (ix3 p s d) (ix3 p (0 : Fin 1) d) ?_).trans ?_
    · intro a
      match a with
      | ⟨0, _⟩ => rfl
      | ⟨1, _⟩ => rfl
      | ⟨2, _⟩ => rfl
    · rw [shapeCast_self]
      refine (shapeCast_apply _ h4 (ix3 p (0 : Fin 1) d) (ix2 p d) ?_).trans ?_
      · rw [Shape.rowMajor_val_two, Shape.rowMajor_val_three]
        show p.val * 128 + d.val = (p.val * 1 + 0) * 128 + d.val
        omega
      · rw [shapeCast_self]
  have eB : shapeCast S256x100x128 x1 h3 (ix3 p s d) = x1 (ix3 p s d) := by rw [shapeCast_self]
  show broadcastTo S256x100x128 (shapeCast S256x1x128 (shapeCast S256x1x128 (shapeCast S256x128 x0 h1) h4) h5) hb (hr.lift (ix2 p s) d)
      * shapeCast S256x100x128 x1 h3 (hr.lift (ix2 p s) d) = _
  rw [e, eA, eB]

/-- THE BLOCK THE BODY STORES, at row p and column q: for a column below 100 the dot product of row p of the item block
    with sample row q of row p of the sample block; zero on the 28 padding columns. -/
theorem payload_apply (x0 : Vec Ideal S256x128 .bf16) (x1 : Vec Ideal S256x100x128 .bf16) (p : Fin 256) (q : Fin 128) :
    Gen.k0_pay1 (F := Ideal) x0 x1 (ix2 p q)
      = if h : q.val < 100 then ∑ d : Fin 128, x0 (ix2 p d) * x1 (ix3 p (⟨q.val, h⟩ : Fin 100) d) else 0 := by
  unfold Gen.k0_pay1
  by_cases h : q.val < 100
  · rw [dif_pos h]
    refine (concatenate_pair_apply_left (t := S256x128) (s₁ := S256x100) (s₂ := S256x28) (1 : Fin 2) _ _
      concatenates_S256x100_S256x28_S256x128_d1 (ix2 p q) rfl (ix2 p (⟨q.val, h⟩ : Fin 100)) ?_).trans ?_
    · intro b
      match b with
      | ⟨0, _⟩ => rfl
      | ⟨1, _⟩ => rfl
    · exact laneSum_apply x0 x1 _ _ _ _ _ _ _ _ _ p ⟨q.val, h⟩
  · rw [dif_neg h]
    have h28 : q.val - 100 < 28 := by have := q.isLt; omega
    refine (concatenate_pair_apply_right (t := S256x128) (s₁ := S256x100) (s₂ := S256x28) (1 : Fin 2) _ _
      concatenates_S256x100_S256x28_S256x128_d1 (ix2 p q) rfl rfl (ix2 p (⟨q.val - 100, h28⟩ : Fin 28)) ?_ ?_).trans ?_
    · intro b hb
      match b with
      | ⟨0, _⟩ => rfl
      | ⟨1, _⟩ => exact absurd rfl hb
    · show q.val - 100 + 100 = q.val
      omega
    · exact Ideal.ofBits_zero_f32

end Cert.KernelIdeal.Scores

end
-- ==== Proof.ScoreArray.lean ====
/-
  From the blocks to the array, and the run: the output array after the 16 grid steps is, at row b and column s < 100, the
  dot product over the 128 lanes of row b of the item array with sample row s of row b of the sample array, and zero on
  the 28 padding columns; the slice after the call keeps the first 100 columns, the scores.
-/
import proofs.«140278_j1735166787760_2_alg».proof.Proof.ScoreBlock

noncomputable section

namespace Cert.KernelIdeal.Scores

open Idealize.ShloMosaic Idealize.ShloMosaic.ValueIdx Idealize.SL.Sem Cert.KernelIdeal Cert.KernelIdeal.Gen
open scoped BigOperators

open Idealize.ShloMosaic.TcCoe
open Idealize.ShloMosaic.Pipeline (Dat)

variable (m : (ℓ : Loc nD τ sig) → Buf (Elt Ideal) ℓ) (ρ : Dev nD → PrngReg)

/-! ## The output array as one function of the two arrays the call is launched on -/

/-- THE OUTPUT ARRAY: row b, column s < 100, is the dot product over the 128 lanes of row b of the item array with sample
    row s of row b of the sample array; the 28 padding columns are zero. -/
def padded (item : S4096x128.Idx → EReal) (samp : S4096x100x128.Idx → EReal) : S4096x128.Idx → EReal :=
  fun i => if h : (i 1).val < 100 then ∑ d : Fin 128, item (ix2 (i 0) d) * samp (ix3 (i 0) (⟨(i 1).val, h⟩ : Fin 100) d) else 0

/-- The scores: row b of the item array against each of the 100 sample rows of b. -/
def scores (item : S4096x128.Idx → EReal) (samp : S4096x100x128.Idx → EReal) : S4096x100.Idx → EReal :=
  fun i => ∑ d : Fin 128, item (ix2 (i 0) d) * samp (ix3 (i 0) (i 1) d)

/-- Block k of the output: when the item block is rows 256 k … 256 k + 255 of the item array and the sample block the same
    rows of the sample array, the stored block is those rows of the output array. -/
theorem block_apply (item : S4096x128.Idx → EReal) (samp : S4096x100x128.Idx → EReal)
    (x0 : Vec Ideal S256x128 .bf16) (x1 : Vec Ideal S256x100x128 .bf16) (k : Nat) (hk : k ≤ 15)
    (h0 : ∀ (p : Fin 256) (d : Fin 128), x0 (ix2 p d) = item (ix2 (⟨k * 256 + p.val, by omega⟩ : Fin 4096) d))
    (h1 : ∀ (p : Fin 256) (s : Fin 100) (d : Fin 128), x1 (ix3 p s d) = samp (ix3 (⟨k * 256 + p.val, by omega⟩ : Fin 4096) s d))
    (p : Fin 256) (q : Fin 128) :
    Gen.k0_pay1 (F := Ideal) x0 x1 (ix2 p q) = padded item samp (ix2 (⟨k * 256 + p.val, by omega⟩ : Fin 4096) q) := by
  rw [payload_apply]
  unfold padded
  by_cases h : q.val < 100
  · rw [dif_pos h, dif_pos (show ((ix2 (⟨k * 256 + p.val, by omega⟩ : Fin 4096) q : S4096x128.Idx) 1).val < 100 from h)]
    refine Finset.sum_congr rfl fun d _ => ?_
    rw [h0, h1]
  · rw [dif_neg h, dif_neg (show ¬ ((ix2 (⟨k * 256 + p.val, by omega⟩ : Fin 4096) q : S4096x128.Idx) 1).val < 100 from h)]

/-- The same, as an equation of whole blocks. -/
theorem block_eq (item : S4096x128.Idx → EReal) (samp : S4096x100x128.Idx → EReal)
    (x0 : Vec Ideal S256x128 .bf16) (x1 : Vec Ideal S256x100x128 .bf16) (k : Nat) (hk : k ≤ 15)
    (h0 : ∀ (p : Fin 256) (d : Fin 128), x0 (ix2 p d) = item (ix2 (⟨k * 256 + p.val, by omega⟩ : Fin 4096) d))
    (h1 : ∀ (p : Fin 256) (s : Fin 100) (d : Fin 128), x1 (ix3 p s d) = samp (ix3 (⟨k * 256 + p.val, by omega⟩ : Fin 4096) s d))
    (G : S256x128.Idx → EReal)
    (hG : ∀ (p : Fin 256) (q : Fin 128), G (ix2 p q) = padded item samp (ix2 (⟨k * 256 + p.val, by omega⟩ : Fin 4096) q)) :
    Gen.k0_pay1 (F := Ideal) x0 x1 = G := by
  funext j
  obtain ⟨p, q, rfl⟩ : ∃ (p : Fin 256) (q : Fin 128), j = ix2 p q := ⟨j 0, j 1, eq_ix2 j⟩
  rw [hG]
  exact block_apply item samp x0 x1 k hk h0 h1 p q

/-! ## What each grid step writes back -/

theorem zero2 : (![0, 0] : Fin 2 → Nat) = fun _ => 0 := funext fun a => by fin_cases a <;> rfl
theorem zero3 : (![0, 0, 0] : Fin 3 → Nat) = fun _ => 0 := funext fun a => by fin_cases a <;> rfl

/-- The index maps, decided over the 16 grid steps: all three windows move together along the rows, one block of 256 rows
    per step, and sit at block 0 on every other axis. -/
theorem index_facts : ∀ t : Fin cfg0.N, win0_0.index t (0 : Fin 2) = win0_2.index t (0 : Fin 2)
    ∧ win0_0.index t (1 : Fin 2) = 0
    ∧ win0_1.index t (0 : Fin 3) = win0_2.index t (0 : Fin 2)
    ∧ win0_1.index t (1 : Fin 3) = 0
    ∧ win0_1.index t (2 : Fin 3) = 0
    ∧ win0_2.index t (1 : Fin 2) = 0
    ∧ win0_2.index t (0 : Fin 2) ≤ 15 :=
  (by decide +kernel : ∀ t : Fin grid0.N, _)

/-- Every block of 256 rows is some step's. -/
theorem index_onto : ∀ q0 : Fin 16, ∃ t : Fin cfg0.N, win0_2.index t = ![q0.val, 0] :=
  (by decide +kernel : ∀ q0 : Fin 16, ∃ t : Fin grid0.N, win0_2.index t = ![q0.val, 0])

set_option maxHeartbeats 400000 in
/-- The item block at step t, at x, is the item array at the block index times the block size plus x, axis by axis. -/
theorem itemBlock_apply (c : Dev nD) (t : Fin cfg0.N) (x : S256x128.Idx) (k : S4096x128.Idx)
    (h0 : (k 0).val = win0_0.index t (0 : Fin 2) * 256 + (x 0).val)
    (h1 : (k 1).val = win0_0.index t (1 : Fin 2) * 128 + (x 1).val) :
    (iblk m c 0 t : Vec Ideal S256x128 .bf16) x = (V m c main_v80 : S4096x128.Idx → EReal) k := by
  unfold iblk
  rw [View.read_apply]
  refine congrArg (V m c main_v80) (funext fun a => Fin.ext ?_)
  match a with
  | ⟨0, _⟩ =>
    show win0_0.index t (0 : Fin 2) * 256 + 1 * (x 0).val = (k 0).val
    omega
  | ⟨1, _⟩ =>
    show win0_0.index t (1 : Fin 2) * 128 + 1 * (x 1).val = (k 1).val
    omega

set_option maxHeartbeats 400000 in
/-- The sample block at step t likewise. -/
theorem sampBlock_apply (c : Dev nD) (t : Fin cfg0.N) (x : S256x100x128.Idx) (k : S4096x100x128.Idx)
    (h0 : (k 0).val = win0_1.index t (0 : Fin 3) * 256 + (x 0).val)
    (h1 : (k 1).val = win0_1.index t (1 : Fin 3) * 100 + (x 1).val)
    (h2 : (k 2).val = win0_1.index t (2 : Fin 3) * 128 + (x 2).val) :
    (iblk m c 1 t : Vec Ideal S256x100x128 .bf16) x = (V m c main_v87 : S4096x100x128.Idx → EReal) k := by
  unfold iblk
  rw [View.read_apply]
  refine congrArg (V m c main_v87) (funext fun a => Fin.ext ?_)
  match a with
  | ⟨0, _⟩ =>
    show win0_1.index t (0 : Fin 3) * 256 + 1 * (x 0).val = (k 0).val
    omega
  | ⟨1, _⟩ =>
    show win0_1.index t (1 : Fin 3) * 100 + 1 * (x 1).val = (k 1).val
    omega
  | ⟨2, _⟩ =>
    show win0_1.index t (2 : Fin 3) * 128 + 1 * (x 2).val = (k 2).val
    omega

/-- A function of the output array's index read through the output block at step t. -/
theorem outBlock_apply (t : Fin cfg0.N) (G : S4096x128.Idx → EReal) (x : S256x128.Idx) (k : S4096x128.Idx)
    (h0 : (k 0).val = win0_2.index t (0 : Fin 2) * 256 + (x 0).val)
    (h1 : (k 1).val = win0_2.index t (1 : Fin 2) * 128 + (x 1).val) :
    (((cfg0.win 2).blk t).view.read (Elt Ideal) G : S256x128.Idx → EReal) x = G k := by
  rw [View.read_apply]
  refine congrArg G (funext fun a => Fin.ext ?_)
  match a with
  | ⟨0, _⟩ =>
    show win0_2.index t (0 : Fin 2) * 256 + 1 * (x 0).val = (k 0).val
    omega
  | ⟨1, _⟩ =>
    show win0_2.index t (1 : Fin 2) * 128 + 1 * (x 1).val = (k 1).val
    omega

/-- WHAT STEP t WRITES BACK is block t of the output array of the two arrays as the call finds them. -/
theorem flushed_eq (c : Dev nD) (t : Fin cfg0.N) :
    (dats m 0 c).flushed 2 t
      = ((cfg0.win 2).blk t).view.read (Elt Ideal) (padded (V m c main_v80) (V m c main_v87)) := by
  show (cfg0.win 2).cut (grid0.coords t) ((dats m 0 c).after 2 t) = _
  rw [after0_2]
  unfold out0_2
  rw [View.canon_unit_zero zero2]
  simp only [View.ld_unit_zero (S := S256x128) zero2, View.ld_unit_zero (S := S256x100x128) zero3]
  obtain ⟨e0, e1, e2, e3, e4, e5, e6⟩ := index_facts t
  refine block_eq (V m c main_v80) (V m c main_v87) (iblk m c 0 t) (iblk m c 1 t) (win0_2.index t (0 : Fin 2)) e6 ?_ ?_ _ ?_
  · intro p d
    refine itemBlock_apply m c t (ix2 p d) _ ?_ ?_
    · show win0_2.index t (0 : Fin 2) * 256 + p.val = win0_0.index t (0 : Fin 2) * 256 + p.val
      omega
    · show d.val = win0_0.index t (1 : Fin 2) * 128 + d.val
      omega
  · intro p s d
    refine sampBlock_apply m c t (ix3 p s d) _ ?_ ?_ ?_
    · show win0_2.index t (0 : Fin 2) * 256 + p.val = win0_1.index t (0 : Fin 3) * 256 + p.val
      omega
    · show s.val = win0_1.index t (1 : Fin 3) * 100 + s.val
      omega
    · show d.val = win0_1.index t (2 : Fin 3) * 128 + d.val
      omega
  · intro p q
    refine outBlock_apply t _ (ix2 p q) _ ?_ ?_
    · show win0_2.index t (0 : Fin 2) * 256 + p.val = win0_2.index t (0 : Fin 2) * 256 + p.val
      rfl
    · show q.val = win0_2.index t (1 : Fin 2) * 128 + q.val
      omega

/-! ## The blocks tile the output array -/

/-- An index of the output array is in step t's block iff each coordinate is in the block's range on its axis. -/
theorem mem_blk (t : Fin cfg0.N) (i : S4096x128.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v88).slice (win0_2.rect t)).set ↔ _
  rw [View.set_slice_whole, Rect.mem_set_unit]
  exact Iff.rfl

/-- Row r of the output array is in the block of the step whose block index is r / 256. -/
theorem cover (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 128 ≤ (i 1).val ∧ (i 1).val < win0_2.index t (1 : Fin 2) * 128 + 128
    omega

/-- THE OUTPUT ARRAY AFTER THE 16 STEPS is `padded` of the two arrays as the call finds them. -/
theorem final (c : Dev nD) : (dats m 0 c).arrAt 2 cfg0.N = padded (V m c main_v80) (V m c main_v87) :=
  (dats m 0 c).arrAt_eq_of_cover 2 (padded (V m c main_v80) (V m c main_v87)) (fun t _ => flushed_eq m c t) cover

/-! ## The slice after the call, and the run -/

/-- The first 100 columns of the output array are the scores. -/
theorem slice_padded (item : S4096x128.Idx → EReal) (samp : S4096x100x128.Idx → EReal)
    (h : S4096x128.Slices ![0, 0] S4096x100) :
    extractStridedSlice S4096x100 ![0, 0] (padded item samp) h = scores item samp := by
  funext i
  have hi0 : (i 0).val < 4096 := (i 0).isLt
  have hi1 : (i 1).val < 100 := (i 1).isLt
  refine (extractStridedSlice_apply ![0, 0] (padded item samp) h i
    (ix2 (⟨(i 0).val, hi0⟩ : Fin 4096) (⟨(i 1).val, by omega⟩ : Fin 128)) (fun a => match a with
    | ⟨0, _⟩ => by show (i 0).val = 0 + (i 0).val; omega
    | ⟨1, _⟩ => by show (i 1).val = 0 + (i 1).val; omega)).trans ?_
  unfold padded scores
  rw [dif_pos (show ((ix2 (⟨(i 0).val, hi0⟩ : Fin 4096) (⟨(i 1).val, by omega⟩ : Fin 128) : S4096x128.Idx) 1).val < 100 from hi1)]
  rfl

/-- What the one operation after the call leaves in its result: the scores of the two arrays as the call finds them. -/
theorem tail_eq (c : Dev nD) :
    Pipeline.afterTail₀ cfgs (dats m) 0 (V0 m) [hostOps1] c main_v89 = scores (V m c main_v80) (V m c main_v87) := by
  unfold Pipeline.afterTail₀
  show StableHlo.after hostOps1 _ (Proc.devRef .tc main_v89) = _
  after_results
  have e : Pipeline.withArrays (cfgs 0).spec c (V0 m c) (fun w => (dats m 0 c).arrAt w (cfgs 0).N) (Proc.devRef .tc main_v88)
      = padded (V m c main_v80) (V m c main_v87) :=
    (Pipeline.withArrays_arr spec0 launch0.win.arr_inj c _ _ 2).trans (final m c)
  exact (congrArg (fun x : S4096x128.Idx → EReal => extractStridedSlice S4096x100 ![0, 0] x slices_S4096x128_S4096x100_0_0) e).trans
    (slice_padded _ _ _)

/-- THE RUN: every weakly fair execution of the program terminates with the result array at the scores of the two arrays
    the call is launched on, and the four arguments as launched. -/
theorem run : θ_run (defs (F := Ideal)) (onTc (τ := τ) (main (F := Ideal))) ⟨m, fun _ => 0, ρ⟩ (fun r => ∀ c : Dev nD,
      r.2.mem ((c.tc : Thread nD τ).loc main_v89) = scores (V m c main_v80) (V m c main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v89 (Pipeline.mem_restRefs_of main_v89 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Scores

end
-- ==== Proof.Propagation.lean ====
/-
  The two graph propagations as functions of the argument arrays, over the extended reals.

  Both programs compute node embeddings `(x + L x + L (L x)) / 3` where `L` sends a node array to, per node, a
  weighted sum over the node's incoming edges (self-loops included).  The reference divides that sum by the node's
  number of incoming edges afterwards (`meanLayer`); the kernel's host code multiplies each edge's weight by the
  reciprocal of its destination's count beforehand (`foldedLayer`).  Edge sources, destinations, symmetric
  normalisation weights and counts are the same terms in both programs; they are named here by the reference's
  stages.
-/
import proofs.«140278_j1735166787760_2_alg».proof.Proof.Gen.ReferenceIdeal.Read

noncomputable section

namespace Cert.Propagation

open Idealize.ShloMosaic Idealize.ShloMosaic.TcCoe
open Cert.ReferenceIdeal Cert.ReferenceIdeal.Gen Cert.ReferenceIdeal.Read

/-- The array of node features, of edge endpoints. -/
abbrev Nodes := FVec Ideal S100000x128 .f32
abbrev Edges := IVec S2x600000 32
/-- One number per node, per edge. -/
abbrev PerNode := FVec Ideal S100000 .f32
abbrev PerEdge := FVec Ideal S700000 .f32

/-- The reciprocal of every node's number of incoming edges. -/
def invCount (x1 : Edges) : PerNode :=
  Host.divf (F := Ideal) (broadcastInDim S100000 ![] bcast_S_S100000 (constant (F := Ideal) S_ .f32 0x3F800000#32)) (val_main_v44 (F := Ideal) x1)

/-- An edge's weight times the reciprocal count of its destination. -/
def foldedWeight (x1 : Edges) : PerEdge :=
  mulf (F := Ideal) (val_main_v27 (F := Ideal) x1)
    (Host.gather gather_S100000_S700000x1_S700000_n_0_n_n_0_1_1 (invCount x1) (val_main_v25 (F := Ideal) x1))

/-- The weighted sum over incoming edges, for given edge weights. -/
def edgeSum (x1 : Edges) (wt : PerEdge) (x : Nodes) : Nodes :=
  Host.scatterAdd (F := Ideal) scatter_S100000x128_S700000x1_S700000x128_1_0_0_1 (val_main_v38 (F := Ideal)) (val_main_v39 (F := Ideal) x1)
    (mulf (F := Ideal) (broadcastInDim S700000x128 ![0, 1] bcast_S700000x1_S700000x128_0_1
        (broadcastInDim S700000x1 ![0] bcast_S700000_S700000x1_0 wt))
      (Host.gather gather_S100000x128_S700000x1_S700000x128_1_0_n_n_0_1_1128 x (val_main_v34 (F := Ideal) x1)))

/-- One propagation with the reciprocal counts folded into the weights. -/
def foldedLayer (x1 : Edges) (x : Nodes) : Nodes := edgeSum x1 (foldedWeight x1) x

/-- One propagation as a mean: the weighted sum divided by the count. -/
def meanLayer (x1 : Edges) (x : Nodes) : Nodes :=
  Host.divf (F := Ideal) (edgeSum x1 (val_main_v27 (F := Ideal) x1) x) (val_main_v46 (F := Ideal) x1)

/-- The embeddings from a propagation `L`: `(x + L x + L (L x)) / 3`. -/
def embed (L : Nodes → Nodes) (x0 : Nodes) : Nodes :=
  Host.divf (F := Ideal) (addf (F := Ideal) (addf (F := Ideal) x0 (L x0)) (L (L x0))) (val_main_v70 (F := Ideal))

/-- The reference's embeddings are the mean propagation's. -/
theorem ref_embed (x0 : Nodes) (x1 : Edges) : val_main_v71 (F := Ideal) x0 x1 = embed (meanLayer x1) x0 := rfl

end Cert.Propagation

end
-- ==== Proof.KernelHost.lean ====
/-
  What the kernel's host code hands to its scoring call, as functions of the argument arrays.

  Before the call the kernel's program computes the node embeddings with the reciprocal counts folded into the edge
  weights, rounds them to the narrow float format (no change on the extended reals), and looks up one embedding row
  per batch item and one per (item, sample) pair.  Row indices are the integer inputs with negative values wrapped
  by the number of nodes.
-/
import proofs.«140278_j1735166787760_2_alg».proof.Proof.Gen.KernelIdeal.Frame
import proofs.«140278_j1735166787760_2_alg».proof.Proof.Propagation
import Idealize.ShloMosaic.Lib.StableHlo.Run

noncomputable section

namespace Cert.KernelHost

open Idealize.ShloMosaic Idealize.ShloMosaic.TcCoe Idealize.SL.Sem Idealize.ShloMosaic.StableHlo
open Cert.Propagation

/-- The item indices as a flat list, negative ones wrapped by the number of nodes, then as a column. -/
def itemIndex (x2 : IVec Cert.KernelIdeal.S4096x1 32) : IVec Cert.KernelIdeal.S4096x1 32 :=
  let r : IVec Cert.KernelIdeal.S4096 32 := shapeCast Cert.KernelIdeal.S4096 x2 Cert.KernelIdeal.Facts₀.shapeCasts_S4096x1_S4096
  broadcastInDim Cert.KernelIdeal.S4096x1 ![0] Cert.KernelIdeal.Facts₀.bcast_S4096_S4096x1_0
    (select (cmpi .slt r (broadcastInDim Cert.KernelIdeal.S4096 ![] Cert.KernelIdeal.Facts₀.bcast_S_S4096 (constantI Cert.KernelIdeal.S_ 32 0#32)))
      (addi r (broadcastInDim Cert.KernelIdeal.S4096 ![] Cert.KernelIdeal.Facts₀.bcast_S_S4096 (constantI Cert.KernelIdeal.S_ 32 100000#32))) r)

/-- The embedding rows of the batch items, as the scoring call finds them. -/
def itemRows (x0 : Nodes) (x1 : Edges) (x2 : IVec Cert.KernelIdeal.S4096x1 32) : FVec Ideal Cert.KernelIdeal.S4096x128 .bf16 :=
  Host.gather Cert.KernelIdeal.gather_S100000x128_S4096x1_S4096x128_1_0_n_n_0_1_1128
    (truncf (F := Ideal) .bf16 (embed (foldedLayer x1) x0) Cert.KernelIdeal.Facts₀.bitsLt_bf16_f32) (itemIndex x2)

/-- The embedding rows of the samples, as the scoring call finds them. -/
def sampleRows (x0 : Nodes) (x1 : Edges) (x3 : IVec Cert.KernelIdeal.S4096x100 32) : FVec Ideal Cert.KernelIdeal.S4096x100x128 .bf16 :=
  Host.gather Cert.KernelIdeal.gather_S100000x128_S4096x100x1_S4096x100x128_2_0_n_n_0_2_1128
    (truncf (F := Ideal) .bf16 (embed (foldedLayer x1) x0) Cert.KernelIdeal.Facts₀.bitsLt_bf16_f32)
    (Cert.ReferenceIdeal.Read.val_main_v84 (F := Ideal) x3)

open Cert.KernelIdeal Cert.KernelIdeal.Gen in
set_option maxRecDepth 16384 in
set_option maxHeartbeats 8000000 in
/-- The scoring call's first operand is the item rows of the arguments. -/
theorem V_items (m : (ℓ : Loc nD τ sig) → Buf (Elt Ideal) ℓ) (c : Dev nD) :
    Gen.V m c main_v80 = itemRows (m ((c.tc : Thread nD τ).loc main_arg0)) (m ((c.tc : Thread nD τ).loc main_arg1))
      (m ((c.tc : Thread nD τ).loc main_arg2)) := by
  show StableHlo.after hostOps0 (fun b => m (c, b)) (Proc.devRef .tc main_v80) = _
  after_results_simp <;> rfl

open Cert.KernelIdeal Cert.KernelIdeal.Gen in
set_option maxRecDepth 16384 in
set_option maxHeartbeats 8000000 in
/-- The scoring call's second operand is the sample rows of the arguments. -/
theorem V_samples (m : (ℓ : Loc nD τ sig) → Buf (Elt Ideal) ℓ) (c : Dev nD) :
    Gen.V m c main_v87 = sampleRows (m ((c.tc : Thread nD τ).loc main_arg0)) (m ((c.tc : Thread nD τ).loc main_arg1))
      (m ((c.tc : Thread nD τ).loc main_arg3)) := by
  show StableHlo.after hostOps0 (fun b => m (c, b)) (Proc.devRef .tc main_v87) = _
  after_results_simp <;> rfl

end Cert.KernelHost

end
-- ==== Proof.FoldedWeight.lean ====
/-
  Folding a reciprocal count into the weights of a weighted sum, on the extended reals.

  A node's propagated value is a sum over its incoming edges of weight · value, divided by the number of
  incoming edges.  Dividing by a positive natural number `k` is multiplying by the real `1 / k`, and
  multiplication by a nonnegative real distributes over every sum of extended reals (an infinite term stays the
  same infinity, and `⊥` absorbs on both sides), so the quotient of the sum is the sum with `1 / k` folded into
  each weight.  No term needs to be finite.
-/
import Idealize.ShloMosaic.PureOps.Ideal

noncomputable section

open scoped BigOperators

namespace Cert.FoldedWeight

open Idealize.ShloMosaic

/-- A sum of real numbers, taken in the extended reals, is the real sum. -/
theorem coe_sum {ι : Type} (S : Finset ι) (f : ι → ℝ) :
    ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- Counting: a sum of ones over a finite set is the set's cardinality. -/
theorem sum_one {ι : Type} (S : Finset ι) : ∑ _j ∈ S, ((1 : ℝ) : EReal) = ((S.card : ℝ) : EReal) := by
  rw [coe_sum, Finset.sum_const, nsmul_eq_mul, mul_one]

/-- Multiplication by a nonnegative real on the right distributes over a finite sum of extended reals. -/
theorem sum_mul_coe {ι : Type} (S : Finset ι) (y : ι → EReal) {r : ℝ} (hr : 0 ≤ r) :
    ∑ j ∈ S, y j * (r : EReal) = (∑ j ∈ S, y j) * (r : EReal) := by
  classical
  induction S using Finset.induction_on with
  | empty => simp
  | insert a S ha ih =>
    rw [Finset.sum_insert ha, Finset.sum_insert ha, ih,
      EReal.right_distrib_of_nonneg_of_ne_top (EReal.coe_nonneg.mpr hr) (EReal.coe_ne_top r)]

/-- The weighted sum with the reciprocal count folded into every weight is the weighted sum divided by the
    count: `∑ (a · (1 / k)) · g = (∑ a · g) / k` for a count `k ≥ 1`, with `1 / k` and the quotient read as
    the extended reals' `Ideal.div`. -/
theorem sum_folded_eq_div {ι : Type} (S : Finset ι) (a g : ι → EReal) {k : ℝ} (hk : 1 ≤ k) :
    ∑ j ∈ S, (a j * Ideal.div 1 (k : EReal)) * g j = Ideal.div (∑ j ∈ S, a j * g j) (k : EReal) := by
  have hk0 : k ≠ 0 := by positivity
  have hr : (0 : ℝ) ≤ 1 / k := by positivity
  rw [Ideal.div_coe hk0, Ideal.div_coe hk0, one_mul, ← sum_mul_coe S _ hr]
  refine Finset.sum_congr rfl fun j _ => ?_
  rw [mul_right_comm]

end Cert.FoldedWeight

end
-- ==== Proof.IndexAt.lean ====
/-
  WHICH ROW A SCATTER'S UPDATE LANDS ON AND WHICH ROW A GATHER READS, at the dimension numbers that indexing a flat
  array or the rows of a matrix by an integer array lowers to. A scatter reads its index as a signed integer, does not
  clamp it, and drops an update that falls outside the operand; a gather reads its start index as a signed integer and
  clamps it into the operand's rows. First the scatter's landing index for any dimension numbers
  (`resultIdx?_eq_some_iff`), then the two scatters and three gathers over generic extents, then the gathers with the
  clamp's upper end written out at an operand of 100000 rows.
-/
import Idealize.ShloMosaic.PureOps.Ideal
import Idealize.ShloMosaic.Lib.ValueIdx

namespace Cert.IndexAt

open Idealize.ShloMosaic Idealize.ShloMosaic.ValueIdx

/-! ## Where a scatter's update lands, for any dimension numbers -/

section General
variable {s si u : Shape} (d : ScatterDims s si u)

/-- An update lands on operand index `i` exactly when, on every operand axis, the signed start plus the
    window coordinate is `i`'s coordinate: nothing is clamped, and an update whose sum leaves the operand on
    some axis lands nowhere. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hin
      have hi := Option.some.inj h
      have h1 := hin a
      rw [← hi]
      simp only
      omega
    · exact absurd h (by simp)
  · intro h
    have hin : ∀ a, 0 ≤ d.start j idx a + d.window j a ∧ d.start j idx a + d.window j a < s.size a := by
      intro a
      have h1 := h a
      have h2 := (i a).isLt
      omega
    rw [dif_pos hin]
    congr 1
    funext a
    refine Fin.ext ?_
    have h1 := h a
    simp only
    omega

end General

/-! ## A rank-1 scatter: scalar updates into a flat array

`x.at[idx].add(upd)` of a flat array `x : [N]` at `E` scalar indices, the indices held as `[E, 1]`: no window
axes, operand axis 0 inserted and named by the index vector's one component. -/

section Scatter1

/-- Those dimension numbers for an operand `[N]`, scatter indices `[E, 1]` and updates `[E]`; their conditions
    `wf` are decided on a program's literal shapes. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The start on the operand's one axis for update `e` is the scatter index `idx[e, 0]`, read signed. -/
theorem scatter1_start (e : (⟨1, ![E]⟩ : Shape).Idx) (idx : IVec ⟨2, ![E, 1]⟩ w) :
    (scatter1Dims N E wf).start e idx 0 = (idx (ix2 (e 0) (0 : Fin 1))).toInt := by
  unfold ScatterDims.start
  rw [dif_pos (show (0 : Fin 1) ∈ (scatter1Dims N E wf).scatterDimsToOperandDims from List.mem_singleton.mpr rfl)]
  have hsi : (scatter1Dims N E wf).siIdx e ⟨List.idxOf (0 : Fin 1) (scatter1Dims N E wf).scatterDimsToOperandDims,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

/-- There is no window: the window coordinate on the operand's one axis is `0`. -/
theorem scatter1_window (e : (⟨1, ![E]⟩ : Shape).Idx) : (scatter1Dims N E wf).window e 0 = 0 := by
  unfold ScatterDims.window
  rw [dif_neg]
  intro h
  simp [ScatterDims.sKept, Shape.kept] at h

/-- WHERE A SCALAR UPDATE LANDS: update `e` lands on row `n` exactly when the scatter index `idx[e, 0]`, read as
    a signed integer, is `n`; it is not clamped, and an update whose index is negative or `≥ N` is dropped. -/
theorem scatter1_resultIdx?_eq_some_iff (idx : IVec ⟨2, ![E, 1]⟩ w) (e : (⟨1, ![E]⟩ : Shape).Idx)
    (n : (⟨1, ![N]⟩ : Shape).Idx) :
    (scatter1Dims N E wf).resultIdx? e idx = some n ↔ (idx (ix2 (e 0) (0 : Fin 1))).toInt = ((n 0).val : Int) := by
  rw [resultIdx?_eq_some_iff]
  constructor
  · intro h
    have h0 := h 0
    rw [scatter1_start, scatter1_window] at h0
    simpa using h0
  · intro h a
    obtain rfl : a = 0 := Subsingleton.elim _ _
    rw [scatter1_start, scatter1_window]
    simpa using h

end Scatter1

/-! ## A row scatter: rows of a matrix added at row indices

`x.at[idx].add(upd)` of a matrix `x : [N, D]` at `E` row indices held as `[E, 1]`, the updates `[E, D]`: the updates'
axis 1 is the window over the operand's axis 1, operand axis 0 is inserted and named by the index vector's one
component. -/

section ScatterRow

/-- Those dimension numbers for an operand `[N, D]`, scatter indices `[E, 1]` and updates `[E, D]`; their
    conditions `wf` are decided on a program's literal shapes. -/
abbrev scatterRowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N D E w : Nat} (wf : ScatterDims.WF ⟨2, ![N, D]⟩ ⟨2, ![E, 1]⟩ ⟨2, ![E, D]⟩ [1] [0] [0] 1)

/-- On the row axis the start for update element `j` is the scatter index `idx[j₀, 0]`, read signed. -/
theorem scatterRow_start0 (j : (⟨2, ![E, D]⟩ : Shape).Idx) (idx : IVec ⟨2, ![E, 1]⟩ w) :
    (scatterRowDims N D E wf).start j idx 0 = (idx (ix2 (j 0) (0 : Fin 1))).toInt := by
  unfold ScatterDims.start
  rw [dif_pos (show (0 : Fin 2) ∈ (scatterRowDims N D E wf).scatterDimsToOperandDims from List.mem_singleton.mpr rfl)]
  have hsi : (scatterRowDims N D E wf).siIdx j ⟨List.idxOf (0 : Fin 2) (scatterRowDims N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the index vector does not name, the start is `0`. -/
theorem scatterRow_start1 (j : (⟨2, ![E, D]⟩ : Shape).Idx) (idx : IVec ⟨2, ![E, 1]⟩ w) :
    (scatterRowDims N D E wf).start j idx 1 = 0 := by
  unfold ScatterDims.start
  rw [dif_neg]
  intro h
  exact absurd (List.mem_singleton.mp h) (show (1 : Fin 2) ≠ 0 by decide)

/-- The row axis is inserted: its window coordinate is `0`. -/
theorem scatterRow_window0 (j : (⟨2, ![E, D]⟩ : Shape).Idx) : (scatterRowDims N D E wf).window j 0 = 0 := by
  unfold ScatterDims.window
  rw [dif_neg]
  intro h
  simp [ScatterDims.sKept, Shape.kept, List.finRange] at h

/-- The column axis is the window: its window coordinate is the update element's column. -/
theorem scatterRow_window1 (j : (⟨2, ![E, D]⟩ : Shape).Idx) : (scatterRowDims N D E wf).window j 1 = (j 1).val := by
  unfold ScatterDims.window
  have hk : (1 : Fin 2) ∈ (scatterRowDims N D E wf).sKept :=
    show (1 : Fin 2) ∈ (List.finRange 2).filter (· ∉ [(0 : Fin 2)]) by decide
  rw [dif_pos hk]
  rfl

/-- WHERE A ROW UPDATE LANDS: update element `j = (e, c)` lands on operand element `i = (n, c')` exactly when the
    scatter index `idx[e, 0]`, read as a signed integer, is the row `n` and the columns agree; the index is not
    clamped, and a row whose index is negative or `≥ N` is dropped. -/
theorem scatterRow_resultIdx?_eq_some_iff (idx : IVec ⟨2, ![E, 1]⟩ w) (j : (⟨2, ![E, D]⟩ : Shape).Idx)
    (i : (⟨2, ![N, D]⟩ : Shape).Idx) :
    (scatterRowDims N D E wf).resultIdx? j idx = some i ↔
      (idx (ix2 (j 0) (0 : Fin 1))).toInt = ((i 0).val : Int) ∧ (j 1).val = (i 1).val := by
  rw [resultIdx?_eq_some_iff]
  constructor
  · intro h
    have h0 := h 0
    have h1 := h 1
    rw [scatterRow_start0, scatterRow_window0] at h0
    rw [scatterRow_start1, scatterRow_window1] at h1
    refine ⟨by simpa using h0, ?_⟩
    omega
  · rintro ⟨h0, h1⟩ a
    match a with
    | ⟨0, _⟩ =>
      show (scatterRowDims N D E wf).start j idx 0 + ((scatterRowDims N D E wf).window j 0 : Int) = ((i 0).val : Int)
      rw [scatterRow_start0, scatterRow_window0]
      simpa using h0
    | ⟨1, _⟩ =>
      show (scatterRowDims N D E wf).start j idx 1 + ((scatterRowDims N D E wf).window j 1 : Int) = ((i 1).val : Int)
      rw [scatterRow_start1, scatterRow_window1]
      omega

end ScatterRow

/-! ## Row gathers: an element or a row read at an index

`x[idx]` of a flat array `x : [N]`, or of a matrix `x : [N, D]` along axis 0, at integer indices carrying a trailing
axis of size 1 (the index vector): slice size 1 on the collapsed axis 0, which the index vector's one component
names, and the whole of axis 1 where there is one. -/

section Gather
variable {α : Type}

/-- Those dimension numbers for an operand `[N]`, start indices `[E, 1]` and result `[E]`; their conditions `wf` are
    decided on a program's literal shapes. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at the start index `idx[e, 0]`, read as a signed integer and clamped
    into `[0, N − 1]`. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (gather1Dims N E wf) x idx e
      = x (ix1 ⟨min (idx (ix2 (e 0) (0 : Fin 1))).toInt.toNat (N - 1), by omega⟩) := by
  unfold Host.gather
  congr 1
  funext a
  obtain rfl : a = 0 := Subsingleton.elim _ _
  refine Fin.ext ?_
  show (gather1Dims N E wf).start e idx 0 + (gather1Dims N E wf).batchCoord e 0 + (gather1Dims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx e ⟨List.idxOf (0 : Fin 1) (gather1Dims N E wf).startIndexMap,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

/-- Those dimension numbers for an operand `[N, D]`, start indices `[R, 1]` and result `[R, D]`; their conditions
    `wf` are decided on a program's literal shapes. -/
abbrev gatherRowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(r, c)`: the operand's element in column `c` of the row the start index `idx[r, 0]`
    names, read as a signed integer and clamped into `[0, N − 1]`. -/
theorem gatherRow_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (gatherRowDims N D R wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (gatherRowDims N D R wf).start y idx 0 + (gatherRowDims N D R wf).batchCoord y 0
      + (gatherRowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowDims N D R wf).startIndexMap from List.mem_singleton.mpr rfl)]
    have hsi : (gatherRowDims N D R wf).siIdx y ⟨List.idxOf (0 : Fin 2) (gatherRowDims N D R wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (gatherRowDims N D R wf).start y idx 1 + (gatherRowDims N D R wf).batchCoord y 1
      + (gatherRowDims N D R wf).offCoord y 1 = _
    rw [GatherDims.batchCoord_eq_zero _ _ _ List.not_mem_nil]
    have hst : (gatherRowDims N D R wf).start y idx 1 = 0 := by
      unfold GatherDims.start
      rw [dif_neg]
      intro h
      exact absurd (List.mem_singleton.mp h) (show (1 : Fin 2) ≠ 0 by decide)
    rw [hst]
    simp only [Nat.add_zero, Nat.zero_add]
    unfold GatherDims.offCoord
    have hk : (1 : Fin 2) ∈ (gatherRowDims N D R wf).sKept :=
      show (1 : Fin 2) ∈ (List.finRange 2).filter (· ∉ ([(0 : Fin 2)] ++ [])) by decide
    rw [dif_pos hk]
    rfl

/-- Those dimension numbers for an operand `[N, D]`, start indices `[R, C, 1]` and result `[R, C, D]`; their
    conditions `wf` are decided on a program's literal shapes. -/
abbrev gatherRow3Dims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- THE ROW GATHER OVER A RANK-3 INDEX ARRAY READ AT `(r, k, c)`: the operand's element in column `c` of the row the
    start index `idx[r, k, 0]` names, read as a signed integer and clamped into `[0, N − 1]`. -/
theorem gatherRow3_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (gatherRow3Dims N D R C wf) x idx y
      = x (ix2 ⟨min (idx (ix3 (y 0) (y 1) (0 : Fin 1))).toInt.toNat (N - 1), by omega⟩ (y 2)) := by
  unfold Host.gather
  congr 1
  funext a
  refine Fin.ext ?_
  match a with
  | ⟨0, _⟩ =>
    show (gatherRow3Dims N D R C wf).start y idx 0 + (gatherRow3Dims N D R C wf).batchCoord y 0
      + (gatherRow3Dims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRow3Dims N D R C wf).startIndexMap from List.mem_singleton.mpr rfl)]
    have hsi : (gatherRow3Dims N D R C wf).siIdx y ⟨List.idxOf (0 : Fin 2) (gatherRow3Dims N D R C wf).startIndexMap,
        List.idxOf_lt_length_iff.2 (List.mem_singleton.mpr rfl)⟩ = ix3 (y 0) (y 1) (0 : Fin 1) := by
      funext b; refine Fin.ext ?_
      match b with
      | ⟨0, _⟩ => rfl
      | ⟨1, _⟩ => rfl
      | ⟨2, _⟩ => rfl
    rw [hsi]
    rfl
  | ⟨1, _⟩ =>
    show (gatherRow3Dims N D R C wf).start y idx 1 + (gatherRow3Dims N D R C wf).batchCoord y 1
      + (gatherRow3Dims N D R C wf).offCoord y 1 = _
    rw [GatherDims.batchCoord_eq_zero _ _ _ List.not_mem_nil]
    have hst : (gatherRow3Dims N D R C wf).start y idx 1 = 0 := by
      unfold GatherDims.start
      rw [dif_neg]
      intro h
      exact absurd (List.mem_singleton.mp h) (show (1 : Fin 2) ≠ 0 by decide)
    rw [hst]
    simp only [Nat.add_zero, Nat.zero_add]
    unfold GatherDims.offCoord
    have hk : (1 : Fin 2) ∈ (gatherRow3Dims N D R C wf).sKept :=
      show (1 : Fin 2) ∈ (List.finRange 2).filter (· ∉ ([(0 : Fin 2)] ++ [])) by decide
    rw [dif_pos hk]
    rfl

end Gather

/-! ## The gathers at an operand of `100000` rows

The same three reads with the clamp's upper end written out: `100000 − 1 = 99999`. -/

section Rows100000
variable {α : Type}

/-- The element gather of a `[100000]` operand read at `e`: the operand at the start index `idx[e, 0]`, read as a
    signed integer and clamped into `[0, 99999]`. -/
theorem gather1_apply_100000 {E w : Nat}
    (wf : GatherDims.WF ⟨1, ![100000]⟩ ⟨2, ![E, 1]⟩ ⟨1, ![E]⟩ [] [0] [] [0] [] 1 ![1])
    (x : (⟨1, ![100000]⟩ : Shape).Idx → α) (idx : IVec ⟨2, ![E, 1]⟩ w) (e : (⟨1, ![E]⟩ : Shape).Idx) :
    Host.gather (gather1Dims 100000 E wf) x idx e
      = x (ix1 ⟨min (idx (ix2 (e 0) (0 : Fin 1))).toInt.toNat 99999, by omega⟩) :=
  gather1_apply (by omega) wf x idx e

/-- The row gather of a `[100000, D]` operand read at `(r, c)`: column `c` of the row the start index `idx[r, 0]`
    names, read as a signed integer and clamped into `[0, 99999]`. -/
theorem gatherRow_apply_100000 {D R w : Nat}
    (wf : GatherDims.WF ⟨2, ![100000, D]⟩ ⟨2, ![R, 1]⟩ ⟨2, ![R, D]⟩ [1] [0] [] [0] [] 1 ![1, D])
    (x : (⟨2, ![100000, D]⟩ : Shape).Idx → α) (idx : IVec ⟨2, ![R, 1]⟩ w) (y : (⟨2, ![R, D]⟩ : Shape).Idx) :
    Host.gather (gatherRowDims 100000 D R wf) x idx y
      = x (ix2 ⟨min (idx (ix2 (y 0) (0 : Fin 1))).toInt.toNat 99999, by omega⟩ (y 1)) :=
  gatherRow_apply (by omega) wf x idx y

/-- The row gather of a `[100000, D]` operand over a rank-3 index array read at `(r, k, c)`: column `c` of the row
    the start index `idx[r, k, 0]` names, read as a signed integer and clamped into `[0, 99999]`. -/
theorem gatherRow3_apply_100000 {D R C w : Nat}
    (wf : GatherDims.WF ⟨2, ![100000, D]⟩ ⟨3, ![R, C, 1]⟩ ⟨3, ![R, C, D]⟩ [2] [0] [] [0] [] 2 ![1, D])
    (x : (⟨2, ![100000, D]⟩ : Shape).Idx → α) (idx : IVec ⟨3, ![R, C, 1]⟩ w) (y : (⟨3, ![R, C, D]⟩ : Shape).Idx) :
    Host.gather (gatherRow3Dims 100000 D R C wf) x idx y
      = x (ix2 ⟨min (idx (ix3 (y 0) (y 1) (0 : Fin 1))).toInt.toNat 99999, by omega⟩ (y 2)) :=
  gatherRow3_apply (by omega) wf x idx y

end Rows100000

end Cert.IndexAt
-- ==== Proof.NodeCount.lean ====
/-
  The number of incoming edges of a node, on the extended reals: a natural number, and at least 1.

  An edge is counted at node `n` when its destination index, read as a signed integer, is `n` (nothing is clamped;
  an index outside the node range is dropped).  Every edge contributes the constant 1, so the count is the number
  of such edges; it is positive because the self-loop appended for `n`, edge `600000 + n`, has destination `n`.
-/
import proofs.«140278_j1735166787760_2_alg».proof.Proof.Propagation
import proofs.«140278_j1735166787760_2_alg».proof.Proof.FoldedWeight
import proofs.«140278_j1735166787760_2_alg».proof.Proof.IndexAt
import Idealize.ShloMosaic.Lib.Pipeline.Value
import Idealize.ShloMosaic.Lib.ValueIdx

noncomputable section

open scoped BigOperators

namespace Cert.LayerLaw

open Idealize.ShloMosaic Idealize.ShloMosaic.TcCoe Idealize.ShloMosaic.ValueIdx
open Cert.ReferenceIdeal Cert.ReferenceIdeal.Gen Cert.ReferenceIdeal.Read Cert.Propagation Cert.IndexAt

/-- The accumulating scatter read at an index: the operand's element plus the sum of the updates that land there. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i
      = x i + ∑ j ∈ Finset.univ.filter (fun j => d.resultIdx? j idx = some i), upd j := rfl

/-! ## Constants and layout -/

/-- The float word of `1.0` denotes the real number 1. -/
theorem one_word : Ideal.ofBits .f32 0x3F800000#32 = ((1 : ℝ) : EReal) := by
  simp [Ideal.ofBits, Ideal.ieee, -EReal.coe_mul]
  norm_num

/-- A per-edge array as a column, read at `(e, 0)`. -/
theorem col_apply {α : Type} (y : S700000.Idx → α) (i : S700000x1.Idx) :
    broadcastInDim S700000x1 ![0] bcast_S700000_S700000x1_0 y i = y (ix1 (i 0)) :=
  broadcastInDim_apply _ bcast_S700000_S700000x1_0 y i (ix1 (i 0)) (fun a => match a with
    | ⟨0, _⟩ => by show (i 0).val = if (700000 : Nat) = 1 then 0 else (i 0).val; rw [if_neg (by decide)])

/-- A column repeated along the 128 coordinates, read at `(e, l)`. -/
theorem row_apply {α : Type} (y : S700000x1.Idx → α) (j : S700000x128.Idx) :
    broadcastInDim S700000x128 ![0, 1] bcast_S700000x1_S700000x128_0_1 y j = y (ix2 (j 0) (0 : Fin 1)) :=
  broadcastInDim_apply _ bcast_S700000x1_S700000x128_0_1 y j (ix2 (j 0) (0 : Fin 1)) (fun a => match a with
    | ⟨0, _⟩ => by show (j 0).val = if (700000 : Nat) = 1 then 0 else (j 0).val; rw [if_neg (by decide)]
    | ⟨1, _⟩ => by show 0 = if (1 : Nat) = 1 then 0 else (j 1).val; rw [if_pos rfl])

/-- The destination column at `(e, 0)` is the destination of edge `e`. -/
theorem dest_col (x1 : Edges) (e : Fin 700000) :
    val_main_v39 (F := Ideal) x1 (ix2 e (0 : Fin 1)) = val_main_v6 (F := Ideal) x1 (ix1 e) := by
  unfold val_main_v39
  exact col_apply _ _

/-- The wrapped destination column at `(e, 0)`: the destination plus the node count when negative. -/
theorem wrapped_col (x1 : Edges) (e : Fin 700000) :
    val_main_v25 (F := Ideal) x1 (ix2 e (0 : Fin 1))
      = Scalar.select (IntOp.cmpi .slt (val_main_v6 (F := Ideal) x1 (ix1 e)) 0#32)
          (IntOp.addi (val_main_v6 (F := Ideal) x1 (ix1 e)) 100000#32) (val_main_v6 (F := Ideal) x1 (ix1 e)) := by
  unfold val_main_v25
  rw [col_apply, val_main_v24_apply, val_main_v21_apply, val_main_v23_apply, val_main_v20_apply, val_main_v22_apply]
  rfl

/-- A destination that is a node index (non-negative as a signed integer) is not wrapped. -/
theorem wrapped_of_nonneg (x1 : Edges) (e : Fin 700000) (n : Nat)
    (h : (val_main_v6 (F := Ideal) x1 (ix1 e)).toInt = (n : Int)) :
    val_main_v25 (F := Ideal) x1 (ix2 e (0 : Fin 1)) = val_main_v6 (F := Ideal) x1 (ix1 e) := by
  rw [wrapped_col]
  have hs : IntOp.cmpi .slt (val_main_v6 (F := Ideal) x1 (ix1 e)) 0#32 = 0#1 := by
    have hn : ¬ ((n : Int) < 0) := by omega
    unfold IntOp.cmpi
    simp only [BitVec.slt, h]
    simp [hn]
  rw [hs]
  rfl

/-- The self-loop appended for node `n` is edge `600000 + n`, and its destination is `n`. -/
theorem self_loop (x1 : Edges) (n : Fin 100000) :
    (val_main_v6 (F := Ideal) x1 (ix1 (⟨600000 + n.val, by omega⟩ : Fin 700000))).toInt = (n.val : Int) := by
  have hv : val_main_v6 (F := Ideal) x1 (ix1 (⟨600000 + n.val, by omega⟩ : Fin 700000)) = val_main_v0 (F := Ideal) (ix1 n) := by
    unfold val_main_v6
    exact concatenate_pair_apply_right (t := S700000) (s₁ := S600000) (s₂ := S100000) (0 : Fin 1) _ _
      concatenates_S600000_S100000_S700000_d0 (ix1 (⟨600000 + n.val, by omega⟩ : Fin 700000)) rfl rfl (ix1 n)
      (fun b hb => absurd (Subsingleton.elim _ _) hb) (by show n.val + 600000 = 600000 + n.val; omega)
  rw [hv, val_main_v0_apply]
  show (BitVec.ofNat 32 n.val).toInt = _
  have hn : n.val < 100000 := n.isLt
  have hp : (2 : Nat) ^ 32 = 4294967296 := by norm_num
  have hm : n.val % 2 ^ 32 = n.val := Nat.mod_eq_of_lt (by omega)
  unfold BitVec.toInt
  rw [BitVec.toNat_ofNat, hm, if_pos (by omega)]

/-! ## The count of a node -/

/-- The number of incoming edges of a node is a natural number, at least 1. -/
theorem count_real (x1 : Edges) (n : Fin 100000) :
    ∃ k : ℝ, 1 ≤ k ∧ val_main_v44 (F := Ideal) x1 (ix1 n) = (k : EReal) := by
  have h0 : val_main_v42 (F := Ideal) (ix1 n) = 0 := by
    rw [val_main_v42_apply, val_main_cst_9_apply]; exact Ideal.ofBits_zero_f32
  have h1 : ∀ e, val_main_v41 (F := Ideal) e = ((1 : ℝ) : EReal) := fun e => by
    rw [val_main_v41_apply, val_main_cst_8_apply]; exact one_word
  have hval := scatterAdd_apply (φ := .f32) scatter_S100000_S700000x1_S700000_n_0_0_1 (val_main_v42 (F := Ideal))
    (val_main_v43 (F := Ideal) x1) (val_main_v41 (F := Ideal)) (ix1 n)
  rw [h0, zero_add, Finset.sum_congr rfl (fun e _ => h1 e), Cert.FoldedWeight.sum_one] at hval
  refine ⟨_, ?_, hval⟩
  have hmem : ix1 (⟨600000 + n.val, by omega⟩ : Fin 700000) ∈ Finset.univ.filter (fun e : S700000.Idx =>
      scatter_S100000_S700000x1_S700000_n_0_0_1.resultIdx? e (val_main_v43 (F := Ideal) x1) = some (ix1 n)) := by
    refine Finset.mem_filter.mpr ⟨Finset.mem_univ _, ?_⟩
    refine (scatter1_resultIdx?_eq_some_iff scatter_S100000_S700000x1_S700000_n_0_0_1_wf _ _ _).mpr ?_
    have : val_main_v43 (F := Ideal) x1 (ix2 (⟨600000 + n.val, by omega⟩ : Fin 700000) (0 : Fin 1))
        = val_main_v6 (F := Ideal) x1 (ix1 (⟨600000 + n.val, by omega⟩ : Fin 700000)) := by
      unfold val_main_v43; exact col_apply _ _
    exact this ▸ self_loop x1 n
  have : 1 ≤ (Finset.univ.filter (fun e : S700000.Idx =>
      scatter_S100000_S700000x1_S700000_n_0_0_1.resultIdx? e (val_main_v43 (F := Ideal) x1) = some (ix1 n))).card :=
    Finset.card_pos.mpr ⟨_, hmem⟩
  exact_mod_cast this

end Cert.LayerLaw

end
-- ==== Proof.LayerLaw.lean ====
/-
  One propagation with the reciprocal counts folded into the edge weights equals the mean propagation.

  Fix a node `n` and an embedding coordinate.  Both sides sum over the edges whose destination is `n`: an edge is
  counted when its destination index, read as a signed integer, is `n` itself (an index outside the node range is
  dropped, nothing is clamped).  For such an edge the folded weight looks its reciprocal count up at the same
  destination — non-negative, so unwrapped, and in range, so unclamped: it is `1 / count n`.  The count is a
  natural number that is at least 1, and the rest is `∑ (a · (1 / k)) · g = (∑ a · g) / k` on the extended reals.
-/
import proofs.«140278_j1735166787760_2_alg».proof.Proof.NodeCount

noncomputable section

open scoped BigOperators

namespace Cert.LayerLaw

open Idealize.ShloMosaic Idealize.ShloMosaic.TcCoe Idealize.ShloMosaic.ValueIdx
open Cert.ReferenceIdeal Cert.ReferenceIdeal.Gen Cert.ReferenceIdeal.Read Cert.Propagation Cert.IndexAt

/-- The host's elementwise quotient read at an index. -/
theorem hostDivf_apply {s : Shape} {φ : FTy} (a b : FVec Ideal s φ) (i : s.Idx) :
    Host.divf (F := Ideal) a b i = Ideal.div (a i) (b i) := rfl

/-- A constant divided elementwise by a per-node array, read at a node. -/
theorem splat_div_apply (b : BitVec 32) (y : PerNode) (n : S100000.Idx) :
    Host.divf (F := Ideal) (broadcastInDim S100000 ![] bcast_S_S100000 (constant (F := Ideal) S_ .f32 b)) y n
      = Ideal.div (Ideal.ofBits .f32 b) (y n) := by
  rw [hostDivf_apply, broadcastInDim_apply _ bcast_S_S100000 _ n (fun a => a.elim0) (fun a => a.elim0), constant_apply]

/-- The reciprocal count of a node is the constant `1.0` divided by its count. -/
theorem invCount_apply (x1 : Edges) (n : S100000.Idx) :
    invCount x1 n = Ideal.div (Ideal.ofBits .f32 0x3F800000#32) (val_main_v44 (F := Ideal) x1 n) := by
  unfold invCount
  exact splat_div_apply _ _ n

/-- An edge's folded weight is its weight times the reciprocal count it looks up. -/
theorem foldedWeight_apply (x1 : Edges) (e : S700000.Idx) :
    foldedWeight x1 e = val_main_v27 (F := Ideal) x1 e
      * Host.gather gather_S100000_S700000x1_S700000_n_0_n_n_0_1_1 (invCount x1) (val_main_v25 (F := Ideal) x1) e := by
  unfold foldedWeight
  exact mulf_apply _ _ e

theorem foldedLayer_apply (x1 : Edges) (x : Nodes) (i : S100000x128.Idx) :
    foldedLayer x1 x i = edgeSum x1 (foldedWeight x1) x i := by
  unfold foldedLayer
  rfl

theorem meanLayer_apply (x1 : Edges) (x : Nodes) (i : S100000x128.Idx) :
    meanLayer x1 x i = Ideal.div (edgeSum x1 (val_main_v27 (F := Ideal) x1) x i) (val_main_v46 (F := Ideal) x1 i) := by
  unfold meanLayer
  exact hostDivf_apply _ _ i

/-- The reciprocal count that an edge landing on node `n` looks up is `1 / count n`. -/
theorem looked_up (x1 : Edges) (e : Fin 700000) (n : Fin 100000)
    (h : (val_main_v6 (F := Ideal) x1 (ix1 e)).toInt = (n.val : Int)) :
    Host.gather gather_S100000_S700000x1_S700000_n_0_n_n_0_1_1 (invCount x1) (val_main_v25 (F := Ideal) x1) (ix1 e)
      = Ideal.div 1 (val_main_v44 (F := Ideal) x1 (ix1 n)) := by
  have hg := gather1_apply_100000 gather_S100000_S700000x1_S700000_n_0_n_n_0_1_1_wf (invCount x1)
    (val_main_v25 (F := Ideal) x1) (ix1 e)
  refine hg.trans ?_
  have hrow : (⟨min (val_main_v25 (F := Ideal) x1 (ix2 ((ix1 e : S700000.Idx) 0) (0 : Fin 1))).toInt.toNat 99999, by omega⟩ : Fin 100000) = n := by
    refine Fin.ext ?_
    show min (val_main_v25 (F := Ideal) x1 (ix2 e (0 : Fin 1))).toInt.toNat 99999 = n.val
    rw [wrapped_of_nonneg x1 e n.val h, h]
    have hn : n.val < 100000 := n.isLt
    simp only [Int.toNat_natCast]
    omega
  rw [hrow, invCount_apply, one_word, EReal.coe_one]

/-- The weight column of an update element `(e, l)` is edge `e`'s weight. -/
theorem weight_at (wt : PerEdge) (j : S700000x128.Idx) :
    broadcastInDim S700000x128 ![0, 1] bcast_S700000x1_S700000x128_0_1
      (broadcastInDim S700000x1 ![0] bcast_S700000_S700000x1_0 wt) j = wt (ix1 (j 0)) := by
  rw [row_apply, col_apply]

/-- The weighted edge sum read at a node and a coordinate. -/
theorem edgeSum_apply (x1 : Edges) (wt : PerEdge) (x : Nodes) (i : S100000x128.Idx) :
    edgeSum x1 wt x i = ∑ j ∈ Finset.univ.filter (fun j : S700000x128.Idx =>
        scatter_S100000x128_S700000x1_S700000x128_1_0_0_1.resultIdx? j (val_main_v39 (F := Ideal) x1) = some i),
      wt (ix1 (j 0)) * Host.gather gather_S100000x128_S700000x1_S700000x128_1_0_n_n_0_1_1128 x (val_main_v34 (F := Ideal) x1) j := by
  unfold edgeSum
  rw [scatterAdd_apply]
  have hz : val_main_v38 (F := Ideal) i = 0 := by
    rw [val_main_v38_apply, val_main_cst_7_apply]; exact Ideal.ofBits_zero_f32
  rw [hz, zero_add]
  refine Finset.sum_congr rfl fun j _ => ?_
  show _ * _ = _
  rw [weight_at]

/-- THE LAW: folding the reciprocal counts into the weights is dividing the weighted sums by the counts. -/
theorem folded_eq_mean (x1 : Edges) (x : Nodes) : foldedLayer x1 x = meanLayer x1 x := by
  funext i
  obtain ⟨n, l, rfl⟩ : ∃ (n : Fin 100000) (l : Fin 128), i = ix2 n l := ⟨i 0, i 1, eq_ix2 i⟩
  obtain ⟨k, hk1, hk⟩ := count_real x1 n
  have hden : val_main_v46 (F := Ideal) x1 (ix2 n l) = (k : EReal) := by
    have hi : idx_main_v45 (idx_main_v46 (ix2 n l)) = ix1 n := by
      funext a; match a with | ⟨0, _⟩ => rfl
    rw [val_main_v46_apply, val_main_v45_apply, hi]
    exact hk
  rw [foldedLayer_apply, meanLayer_apply, edgeSum_apply, edgeSum_apply, hden]
  refine Eq.trans (Finset.sum_congr rfl fun j hj => ?_)
    (Cert.FoldedWeight.sum_folded_eq_div _ (fun j : S700000x128.Idx => val_main_v27 (F := Ideal) x1 (ix1 (j 0)))
      (fun j => Host.gather gather_S100000x128_S700000x1_S700000x128_1_0_n_n_0_1_1128 x (val_main_v34 (F := Ideal) x1) j) hk1)
  have hd : (val_main_v6 (F := Ideal) x1 (ix1 (j 0))).toInt = (n.val : Int) := by
    have := ((scatterRow_resultIdx?_eq_some_iff scatter_S100000x128_S700000x1_S700000x128_1_0_0_1_wf _ _ _).mp
      (Finset.mem_filter.mp hj).2).1
    exact (congrArg BitVec.toInt (dest_col x1 (j 0))).symm.trans this
  rw [foldedWeight_apply, looked_up x1 (j 0) n hd, hk]

/-- The two programs' node embeddings are one function of the arguments. -/
theorem embed_eq (x0 : Nodes) (x1 : Edges) : embed (foldedLayer x1) x0 = val_main_v71 (F := Ideal) x0 x1 := by
  rw [ref_embed]
  exact congrArg (fun L => embed L x0) (funext fun x => folded_eq_mean x1 x)

end Cert.LayerLaw

end
-- ==== Proof.RowsAgree.lean ====
/-
  The rows the kernel's scoring call is launched on are the rows the reference contracts.

  Both programs look up, in the same embedding array (the propagation law), the row of each batch item and of each
  of its samples.  The kernel flattens the item indices [4096, 1] to [4096] before wrapping negative ones and reads
  a [4096, 128] array; the reference wraps them in place and reads a [4096, 1, 128] array: element `(b, d)` of the
  first is element `(b, 0, d)` of the second, both being the embedding at row
  `clamp (wrap items[b, 0])`, coordinate `d`.  The sample rows are the same lookup in both.  Rounding the embeddings
  to the narrow float format is the identity on the extended reals.
-/
import proofs.«140278_j1735166787760_2_alg».proof.Proof.KernelHost
import proofs.«140278_j1735166787760_2_alg».proof.Proof.LayerLaw

noncomputable section

namespace Cert.RowsAgree

open Idealize.ShloMosaic Idealize.ShloMosaic.TcCoe Idealize.ShloMosaic.ValueIdx
open Cert.ReferenceIdeal Cert.ReferenceIdeal.Gen Cert.ReferenceIdeal.Read Cert.Propagation Cert.IndexAt Cert.KernelHost

/-- The wrapped index of item `b`: its index plus the node count when negative. -/
def wrappedItem (x2 : IVec S4096x1 32) (b : Fin 4096) : BitVec 32 :=
  Scalar.select (IntOp.cmpi .slt (x2 (ix2 b (0 : Fin 1))) 0#32) (IntOp.addi (x2 (ix2 b (0 : Fin 1))) 100000#32)
    (x2 (ix2 b (0 : Fin 1)))

/-- The kernel's item index column at `(b, 0)`. -/
theorem kernel_index (x2 : IVec S4096x1 32) (b : Fin 4096) :
    itemIndex x2 (ix2 b (0 : Fin 1)) = wrappedItem x2 b := by
  unfold itemIndex
  dsimp only
  rw [broadcastInDim_apply _ Cert.KernelIdeal.Facts₀.bcast_S4096_S4096x1_0 _ (ix2 b (0 : Fin 1)) (ix1 b) (fun a => match a with
    | ⟨0, _⟩ => by show b.val = if (4096 : Nat) = 1 then 0 else b.val; rw [if_neg (by decide)])]
  have hr : shapeCast Cert.KernelIdeal.S4096 x2 Cert.KernelIdeal.Facts₀.shapeCasts_S4096x1_S4096 (ix1 b) = x2 (ix2 b (0 : Fin 1)) :=
    shapeCast_apply x2 Cert.KernelIdeal.Facts₀.shapeCasts_S4096x1_S4096 (ix1 b) (ix2 b (0 : Fin 1))
      (by rw [Shape.rowMajor_val_two, Shape.rowMajor_val_one]; show b.val * 1 + 0 = b.val; omega)
  show Scalar.select (IntOp.cmpi .slt (shapeCast Cert.KernelIdeal.S4096 x2 _ (ix1 b)) _) (IntOp.addi (shapeCast Cert.KernelIdeal.S4096 x2 _ (ix1 b)) _)
      (shapeCast Cert.KernelIdeal.S4096 x2 _ (ix1 b)) = _
  rw [hr]
  rfl

/-- The reference's item index array at `(b, 0, 0)`. -/
theorem ref_index (x2 : IVec S4096x1 32) (b : Fin 4096) :
    val_main_v77 (F := Ideal) x2 (ix3 b (0 : Fin 1) (0 : Fin 1)) = wrappedItem x2 b := by
  have hi : idx_main_v77 (ix3 b (0 : Fin 1) (0 : Fin 1)) = ix2 b (0 : Fin 1) := by
    funext a; match a with | ⟨0, _⟩ => rfl | ⟨1, _⟩ => rfl
  rw [val_main_v77_apply, hi, val_main_v76_apply, val_main_v73_apply, val_main_v75_apply, val_main_v72_apply, val_main_v74_apply]
  rfl

/-- Item rows: element `(b, d)` of the kernel's array is element `(b, 0, d)` of the reference's. -/
theorem item_rows (x0 : Nodes) (x1 : Edges) (x2 : IVec S4096x1 32) (b : Fin 4096) (d : Fin 128) :
    (itemRows x0 x1 x2 (ix2 b d) : EReal) = val_main_v78 (F := Ideal) x0 x1 x2 (ix3 b (0 : Fin 1) d) := by
  unfold itemRows val_main_v78
  refine (gatherRow_apply_100000 Cert.KernelIdeal.Facts₀.gather_S100000x128_S4096x1_S4096x128_1_0_n_n_0_1_1128_wf _ _ _).trans ?_
  refine Eq.trans ?_ (gatherRow3_apply_100000 gather_S100000x128_S4096x1x1_S4096x1x128_2_0_n_n_0_2_1128_wf _ _ _).symm
  rw [truncf_apply, Cert.LayerLaw.embed_eq]
  show val_main_v71 (F := Ideal) x0 x1 (ix2 ⟨min (itemIndex x2 (ix2 b (0 : Fin 1))).toInt.toNat 99999, _⟩ d)
    = val_main_v71 (F := Ideal) x0 x1 (ix2 ⟨min (val_main_v77 (F := Ideal) x2 (ix3 b (0 : Fin 1) (0 : Fin 1))).toInt.toNat 99999, _⟩ d)
  simp only [kernel_index, ref_index]

/-- Sample rows: the same lookup in both programs. -/
theorem sample_rows (x0 : Nodes) (x1 : Edges) (x3 : IVec S4096x100 32) (j : S4096x100x128.Idx) :
    (sampleRows x0 x1 x3 j : EReal) = val_main_v85 (F := Ideal) x0 x1 x3 j := by
  unfold sampleRows val_main_v85
  refine (gatherRow3_apply_100000 Cert.KernelIdeal.Facts₀.gather_S100000x128_S4096x100x1_S4096x100x128_2_0_n_n_0_2_1128_wf _ _ _).trans ?_
  refine Eq.trans ?_ (gatherRow3_apply_100000 gather_S100000x128_S4096x100x1_S4096x100x128_2_0_n_n_0_2_1128_wf _ _ _).symm
  rw [truncf_apply, Cert.LayerLaw.embed_eq]

end Cert.RowsAgree

end
-- ==== Proof.RefScores.lean ====
/-
  The reference's result, read at an index: the score of item `b` against its sample `s` is the sum over the
  128 embedding coordinates of the product of the item's row and the sample's row.  (The reference contracts
  a [4096, 1, 128] array against a [4096, 100, 128] one, batched over the first axis, and drops the unit axis.)
-/
import proofs.«140278_j1735166787760_2_alg».proof.Proof.Gen.ReferenceIdeal.Read

noncomputable section

open scoped BigOperators

namespace Cert.RefScores

open Idealize.ShloMosaic Idealize.ShloMosaic.TcCoe Idealize.ShloMosaic.ValueIdx
open Cert.ReferenceIdeal Cert.ReferenceIdeal.Gen Cert.ReferenceIdeal.Read

/-- The flat position `b · 100 + s` of the result, split back into the contraction's batch and free coordinates. -/
theorem left_index (i : S4096x100.Idx) (k : Fin 128) :
    lidx_main_v86 (idx_main_v87 i) k = ix3 (i 0) (0 : Fin 1) k := by
  funext a
  refine Fin.ext ?_
  match a with
  | ⟨0, _⟩ =>
    have h1 : (i 1).val < 100 := (i 1).isLt
    show ((i 0).val * 100 + (i 1).val) / 100 = (i 0).val
    omega
  | ⟨1, _⟩ => rfl
  | ⟨2, _⟩ => rfl

theorem right_index (i : S4096x100.Idx) (k : Fin 128) :
    ridx_main_v86 (idx_main_v87 i) k = ix3 (i 0) (i 1) k := by
  funext a
  refine Fin.ext ?_
  match a with
  | ⟨0, _⟩ =>
    have h1 : (i 1).val < 100 := (i 1).isLt
    show ((i 0).val * 100 + (i 1).val) / 100 = (i 0).val
    omega
  | ⟨1, _⟩ =>
    have h1 : (i 1).val < 100 := (i 1).isLt
    show ((i 0).val * 100 + (i 1).val) % 100 = (i 1).val
    omega
  | ⟨2, _⟩ => rfl

/-- The reference's result at `(b, s)`: the dot product of item `b`'s row with the row of its sample `s`. -/
theorem result_apply (x0 : FVec Ideal S100000x128 .f32) (x1 : IVec S2x600000 32) (x2 : IVec S4096x1 32)
    (x3 : IVec S4096x100 32) (i : S4096x100.Idx) :
    val_main_v87 (F := Ideal) x0 x1 x2 x3 i
      = ∑ k : Fin 128, val_main_v78 (F := Ideal) x0 x1 x2 (ix3 (i 0) (0 : Fin 1) k)
          * val_main_v85 (F := Ideal) x0 x1 x3 (ix3 (i 0) (i 1) k) := by
  rw [val_main_v87_apply, val_main_v86_apply]
  refine Finset.sum_congr rfl fun k _ => ?_
  exact congrArg₂ (· * ·) (congrArg _ (left_index i k)) (congrArg _ (right_index i k))

end Cert.RefScores

end
-- ==== Proof.lean ====
/-
  A graph recommender's scoring step against its reference, on the extended reals.

  Both programs compute node embeddings by two rounds of normalised message passing over a graph with self-loops
  and average the three stages; they then score each batch item against its hundred samples by the dot product of
  their embedding rows.  They differ in two places.  The reference divides each round's weighted edge sums by the
  node's number of incoming edges; the kernel's host code multiplies every edge weight by the reciprocal count of
  its destination instead.  Dividing by a positive natural number is multiplying by a nonnegative real, which
  distributes over every sum of extended reals, and the count is at least 1 because of the self-loop: the two
  rounds are one function of any node array (Proof/LayerLaw.lean), with no finiteness needed.  And the kernel
  computes the dot products block by block over 16 batch tiles, padding 100 scores to 128 lanes and slicing the
  padding off again, where the reference contracts whole arrays: read at an index both are the same sum over the
  128 embedding coordinates (Proof/ScoreArray.lean for the kernel, Proof/RefScores.lean for the reference), of the
  same rows (Proof/RowsAgree.lean).  The idealisation rewrote nothing, so the kernel's idealised program is its own
  text read on the extended reals.
-/
import proofs.«140278_j1735166787760_2_alg».proof.Defs
import proofs.«140278_j1735166787760_2_alg».proof.Proof.Gen.Kernel
import proofs.«140278_j1735166787760_2_alg».proof.Proof.Gen.Kernel.Skeleton
import proofs.«140278_j1735166787760_2_alg».proof.Proof.Gen.Kernel.Launch
import proofs.«140278_j1735166787760_2_alg».proof.Proof.Gen.Kernel.Points
import proofs.«140278_j1735166787760_2_alg».proof.Proof.Gen.Kernel.Frame
import proofs.«140278_j1735166787760_2_alg».proof.Proof.Gen.KernelIdeal
import proofs.«140278_j1735166787760_2_alg».proof.Proof.Gen.KernelIdeal.Skeleton
import proofs.«140278_j1735166787760_2_alg».proof.Proof.Gen.KernelIdeal.Launch
import proofs.«140278_j1735166787760_2_alg».proof.Proof.Gen.KernelIdeal.Points
import proofs.«140278_j1735166787760_2_alg».proof.Proof.Gen.KernelIdeal.Frame
import proofs.«140278_j1735166787760_2_alg».proof.Proof.Gen.ReferenceIdeal
import proofs.«140278_j1735166787760_2_alg».proof.Proof.Gen.Pre_finite_inputs
import proofs.«140278_j1735166787760_2_alg».proof.Proof.Gen.ReferenceIdeal.Run
import proofs.«140278_j1735166787760_2_alg».proof.Proof.Gen.ReferenceIdeal.Read
import proofs.«140278_j1735166787760_2_alg».proof.Proof.ScoreArray
import proofs.«140278_j1735166787760_2_alg».proof.Proof.KernelHost
import proofs.«140278_j1735166787760_2_alg».proof.Proof.RowsAgree
import proofs.«140278_j1735166787760_2_alg».proof.Proof.RefScores
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealised reading. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the scores of the item rows against the sample rows of the same embeddings. -/
theorem algebraic : Cert.algebraic_KernelIdeal_ReferenceIdeal := by
  intro m ρ m' ρ' _ hagree
  refine ⟨fun c => Cert.KernelIdeal.Scores.scores
      (Cert.KernelHost.itemRows (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.KernelHost.sampleRows (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))), ?_, ?_⟩
  · refine (θ_run Cert.KernelIdeal.defs _ _).mono (fun r h c => ⟨(h c).1.trans ?_, (h c).2⟩)
      (Cert.KernelIdeal.Scores.run m ρ)
    rw [Cert.KernelHost.V_items, Cert.KernelHost.V_samples]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v87_eq, (hagree c).1, (hagree c).2.1, (hagree c).2.2.1, (hagree c).2.2.2]
    funext i
    rw [Cert.RefScores.result_apply]
    unfold Cert.KernelIdeal.Scores.scores
    refine Finset.sum_congr rfl fun d _ => ?_
    exact (congrArg₂ (· * ·) (Cert.RowsAgree.item_rows _ _ _ (i 0) d) (Cert.RowsAgree.sample_rows _ _ _ _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
